-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S5000x64 : Shape := ⟨2, ![5000, 64]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 91
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x40, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x40, .f32⟩
  | .hbm, ⟨81, _⟩ => ⟨S1700000x1, .f32⟩
  | .hbm, ⟨82, _⟩ => ⟨S1700000x40, .f32⟩
  | .hbm, ⟨83, _⟩ => ⟨S1700000x40, .f32⟩
  | .hbm, ⟨84, _⟩ => ⟨S_, .f32⟩
  | .hbm, ⟨85, _⟩ => ⟨S100000x40, .f32⟩
  | .hbm, ⟨86, _⟩ => ⟨S1700000x1, .i32⟩
  | .hbm, ⟨87, _⟩ => ⟨S100000x40, .f32⟩
  | .hbm, ⟨88, _⟩ => ⟨S1x40, .f32⟩
  | .hbm, ⟨89, _⟩ => ⟨S100000x40, .f32⟩
  | .hbm, ⟨90, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S100000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S_, .f32⟩
  | 24 => ⟨S1700000, .f32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S_, .f32⟩
  | 87 => ⟨S1700000, .f32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S100000x40, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x40, .f32⟩
  | 126 => ⟨S1700000x1, .f32⟩
  | 127 => ⟨S1700000x40, .f32⟩
  | _ => ⟨S100000x128, .f32⟩

abbrev hbmTy0_1 (i : Nat) : BufTy := match i % 128 with
  | 0 => ⟨S1700000x40, .f32⟩
  | 1 => ⟨S_, .f32⟩
  | 2 => ⟨S100000x40, .f32⟩
  | 3 => ⟨S1700000x1, .i32⟩
  | 4 => ⟨S100000x40, .f32⟩
  | 5 => ⟨S1x40, .f32⟩
  | 6 => ⟨S100000x40, .f32⟩
  | 7 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_call2_v0 : Ref sig .tc := ⟨.hbm, 94, rfl⟩
abbrev main_call2_v1 : Ref sig .tc := ⟨.hbm, 95, rfl⟩
abbrev main_v65 : Ref sig .tc := ⟨.hbm, 96, rfl⟩
abbrev main_c_17 : Ref sig .tc := ⟨.hbm, 97, rfl⟩
abbrev main_v66 : Ref sig .tc := ⟨.hbm, 98, rfl⟩
abbrev main_v67 : Ref sig .tc := ⟨.hbm, 99, rfl⟩
abbrev main_c_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_19 : Ref sig .tc := ⟨.hbm, 106, rfl⟩
abbrev main_v73 : Ref sig .tc := ⟨.hbm, 107, rfl⟩
abbrev main_v74 : Ref sig .tc := ⟨.hbm, 108, rfl⟩
abbrev main_c_20 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_c_22 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_23 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, with its memory read at the end.

  The program is seven segments in order: three stretches of host operations, the first matrix-product region, a stretch
  of host operations, the second matrix-product region, and a last stretch of host operations. The buffer contents at
  the segment boundaries are a fold from the launch memory: a stretch applies its operations, a region replaces its
  arrays by what its write-backs leave and keeps every other buffer. This module states the run with the WHOLE memory
  outside the kernels' scoped storage read at the last boundary of that fold: every weakly fair execution terminates,
  nothing faults, and every such buffer ends holding the fold's value. The result buffer and the argument arrays are
  instances.
-/
import proofs.«172553_j53996328845503_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer outside the kernels'
    scoped storage ends at the value the fold through the seven segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run with the result buffer and the six argument arrays read: the result ends at the fold's value at its
    buffer, the arguments as launched. -/
theorem run_result : θ_run defs (onTc (τ := τ) (main (F := F))) ⟨m, fun _ => 0, ρ⟩ (fun r => ∀ c : Dev nD,
      r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v66 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_all m ρ)

end Cert.KernelIdeal.RunValue

end
-- ==== Proof.PiecesKernel.lean ====
/-
  The host-side pieces of the two-layer graph convolution, named.

  Every piece is a composition of host operations on whole arrays, over the extended reals: the edge lists with a
  self-loop appended for every node, the wrap of a negative index by the number of nodes, each node's in-degree as a
  sum of ones scattered to the edges' targets, its inverse square root where it is positive and zero elsewhere, the
  weight of an edge as the product of that quantity at its two ends, and the aggregation step of a layer: gather
  the rows of a node matrix at the edges' sources, scale each by its edge's weight, and add them up at the edges'
  targets; last, a bias row added to every row.
-/
import proofs.«172553_j53996328845503_1_alg».proof.Proof.Gen.KernelIdeal
import Idealize.ShloMosaic.PureOps.Ideal

noncomputable section

namespace Cert.KernelIdeal.Pieces

open Cert.KernelIdeal Cert.KernelIdeal.Facts₀ Idealize.ShloMosaic

/-- An integer array of shape `s`. -/
abbrev IV (s : Shape) := IVec s 32
/-- A float array of shape `s`, its entries extended reals. -/
abbrev FV (s : Shape) := FVec Ideal s .f32

/-- The edges' sources: row 0 of the edge list, followed by the nodes `0 … 99999` (the self-loops). -/
def src (ei : IV S2x1600000) : IV S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' targets: row 1 of the edge list, followed by the nodes `0 … 99999` (the self-loops). -/
def dst (ei : IV S2x1600000) : IV S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counted from the end: `x + 100000` where `x < 0`, `x` elsewhere. -/
def wrap (x : IV S1700000) : IV S1700000 :=
  select (cmpi .slt x (broadcastInDim S1700000 ![] bcast_S_S1700000 (constantI S_ 32 0#32))) (addi x (broadcastInDim S1700000 ![] bcast_S_S1700000 (constantI S_ 32 100000#32))) x

/-- Each node's in-degree: ones added up at the edges' targets, from zero. -/
def deg (d : IV S1700000) : FV S100000 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (wrap d)) (broadcastInDim S1700000 ![] bcast_S_S1700000 (constant (F := Ideal) S_ .f32 0x3F800000#32))

/-- The in-degree to the power `-1/2` where it is positive, zero elsewhere. -/
def dinv (d : IV S1700000) : FV S100000 :=
  select (cmpf .ogt (deg d) (broadcastInDim S100000 ![] bcast_S_S100000 (constant (F := Ideal) S_ .f32 0x00000000#32))) (Host.rsqrt (deg d)) (broadcastInDim S100000 ![] bcast_S_S100000 (id (constant (F := Ideal) S_ .f32 0x00000000#32)))

/-- An edge's weight: the product of `dinv` at its source and at its target. -/
def norm (s d : IV S1700000) : FV S1700000 :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- The aggregation of a 64-column node matrix `h`: row `h (s e)` scaled by the weight `n e`, summed over the
    edges `e` with target `d e`, from zero. -/
def agg64 (h : FV S100000x64) (s d : IV S1700000) (n : FV S1700000) : FV S100000x64 :=
  Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 n)))

/-- The aggregation of a 40-column node matrix, in the same way. -/
def agg40 (h : FV S100000x40) (s d : IV S1700000) (n : FV S1700000) : FV S100000x40 :=
  Host.scatterAdd scatter_S100000x40_S1700000x1_S1700000x40_1_0_0_1 (broadcastInDim S100000x40 ![] bcast_S_S100000x40 (constant (F := Ideal) S_ .f32 0x00000000#32)) (broadcastInDim S1700000x1 ![0] bcast_S1700000_S1700000x1_0 d) (mulf (Host.gather gather_S100000x40_S1700000x1_S1700000x40_1_0_n_n_0_1_140 h (broadcastInDim S1700000x1 ![0] bcast_S1700000_S1700000x1_0 (wrap s))) (broadcastInDim S1700000x40 ![0, 1] bcast_S1700000x1_S1700000x40_0_1 (broadcastInDim S1700000x1 ![0] bcast_S1700000_S1700000x1_0 n)))

/-- A 40-entry bias row added to every row of a 40-column matrix. -/
def addBias40 (a : FV S100000x40) (b : FV S40) : FV S100000x40 :=
  addf a (broadcastInDim S100000x40 ![0, 1] bcast_S1x40_S100000x40_0_1 (broadcastInDim S1x40 ![1] bcast_S40_S1x40_1 b))

end Cert.KernelIdeal.Pieces

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.LayerOneArray.lean ====
/-
  The first layer's product, read off the blocks the kernel writes.

  The first kernel multiplies the feature matrix `x` (100000 × 128) by the weight matrix `W1` (128 × 64) in ten
  steps. Step `t` takes rows `10000·t … 10000·t + 9999` of `x` and all of `W1`, and writes their product to the same
  rows of the output. The ten row blocks tile the output, so after the last step the output holds, at entry `(a, b)`,
  the sum over `k < 128` of `x (a, k) · W1 (k, b)`: the product of the two whole matrices, which is what the host's
  general dot product of the whole arrays holds there. Over the extended reals a change of float format is the
  identity, so the narrowing of the operands before the product changes nothing.
-/
import proofs.«172553_j53996328845503_1_alg».proof.Proof.Gen.KernelIdeal.Frame
import proofs.«172553_j53996328845503_1_alg».proof.Proof.LibMatmulIx
import proofs.«172553_j53996328845503_1_alg».proof.Proof.LibHostDotIx
import Idealize.ShloMosaic.Lib.Pipeline.Value
import Idealize.ShloMosaic.Lib.ValueIdx
import Idealize.ShloMosaic.PureOps.Ideal.Laws

noncomputable section

open scoped BigOperators

namespace Cert.KernelIdeal.LayerOne

open Cert.KernelIdeal Cert.KernelIdeal.Gen Idealize.ShloMosaic Idealize.ShloMosaic.TcCoe Idealize.ShloMosaic.ValueIdx
open Idealize.ShloMosaic.Pipeline (Dat)

/-! ## One block's product at an entry -/

/-- What one step computes from its two blocks, at entry `(p, q)` of the block: the sum over the contracted
    coordinate `k` of `x0 (p, k) · x1 (k, q)`. Both operands are first narrowed to a shorter float format, which over
    the extended reals is the identity; the product is accumulated into the all-zero block. -/
theorem payload_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact Cert.LibMatmulIx.matmul_zero_apply (M := 10000) (K := 128) (N := 64)
    dot_S10000x128_S128x64_S10000x64_1_0_0_1_n_n_wf none x0 x1 p q

/-! ## The product of the whole matrices -/

/-- The product of a 100000 × 128 matrix `A` and a 128 × 64 matrix `B`, entry by entry: at `(a, b)` the sum over
    `k < 128` of `A (a, k) · B (k, b)`. -/
def product (A : Vec Ideal S100000x128 .f32) (B : Vec Ideal S128x64 .f32) : Vec Ideal S100000x64 .f32 :=
  fun i => ∑ k : Fin 128, A (ix2 (n0 := 100000) ⟨(i 0).val, idx2_lt0 i⟩ k) * B (ix2 (n1 := 64) k ⟨(i 1).val, idx2_lt1 i⟩)

/-- A block's product is a block of the whole product. Let `x0` be the rows of `A` picked by `e0` and `x1` the
    entries of `B` picked by `e1`. If `e0` sends row `y 0` of the block to row `i 0` of `A`, keeping the column,
    and `e1` sends column `y 1` of the block to column `i 1` of `B`, keeping the row, then the block's product at `y`
    is the whole product at `i`: the two sums agree term by term. -/
theorem block_entry (A : Vec Ideal S100000x128 .f32) (B : Vec Ideal S128x64 .f32)
    (x0 : Vec Ideal S10000x128 .f32) (x1 : Vec Ideal S128x64 .f32)
    (e0 : S10000x128.Idx → S100000x128.Idx) (e1 : S128x64.Idx → S128x64.Idx)
    (h0 : x0 = fun y => A (e0 y)) (h1 : x1 = fun y => B (e1 y))
    (y : S10000x64.Idx) (i : S100000x64.Idx)
    (he0 : ∀ k : Fin 128, e0 (ix2 (n0 := 10000) ⟨(y 0).val, idx2_lt0 y⟩ k) = ix2 (n0 := 100000) ⟨(i 0).val, idx2_lt0 i⟩ k)
    (he1 : ∀ k : Fin 128, e1 (ix2 (n1 := 64) k ⟨(y 1).val, idx2_lt1 y⟩) = ix2 (n1 := 64) k ⟨(i 1).val, idx2_lt1 i⟩) :
    k0_pay1 (F := Ideal) x0 x1 y = product A B i := by
  obtain ⟨p, q, rfl⟩ : ∃ (p : Fin 10000) (q : Fin 64), y = ix2 p q := ⟨y 0, y 1, eq_ix2 y⟩
  rw [payload_apply]
  subst h0 h1
  unfold product
  exact Finset.sum_congr rfl fun k _ => by rw [← he0 k, ← he1 k]

/-! ## Which rows each step takes -/

/-- The offsets `(0, 0)` are zero on both axes. -/
theorem zero_offsets : (![0, 0] : Fin 2 → Nat) = fun _ => 0 := funext fun a => by fin_cases a <;> rfl

/-- The block indices at step `t`, decided over the ten steps: the block of `x` and the block of the output are
    row block `t`, column block `0`; the block of `W1` is always block `(0, 0)`, the whole matrix. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What step `t` writes back -/

/-- Step `t` writes back block `t` of the whole product of the two arrays as the steps find them. An element of a
    block sits in its array, on each axis, at the block index times the block's extent plus its coordinate inside the
    block; so entry `(p, q)` of the output block is entry `(10000·t + p, q)` of the output, row `p` of the block of
    `x` is row `10000·t + p` of `x`, and the block of `W1` is `W1`. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨a0, a1, b0, b1, o0, o1⟩ := block_indices t
  funext j
  refine block_entry (V c main_arg0) (V c main_arg2) (iblk0 V c 0 t) (iblk0 V c 1 t)
    (fun y => ((cfg0.win 0).blk t).view.emb y) (fun y => ((cfg0.win 1).blk t).view.emb y) rfl rfl
    ((cfg0.win 2).xinj (grid0.coords t) j) (((cfg0.win 2).blk t).view.emb j) ?_ ?_
  · intro k
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · intro k
    funext a; apply Fin.ext
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega

/-! ## The row blocks tile the output -/

/-- An entry of the output is in step `t`'s block iff, on each axis, its coordinate lies in the block's range: from
    the block index times the block's extent, for one extent. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v35).slice (win0_2.rect t)).set ↔ _
  rw [View.set_slice_whole, Rect.mem_set_unit]
  exact Iff.rfl

/-- Every entry of the output is written by some step: row `r` is in the block of step `r / 10000`, which is one
    of the ten steps because `r < 100000`, and every column is in every block. -/
theorem covered (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by omega⟩, rfl⟩
  obtain ⟨-, -, -, -, o0, o1⟩ := block_indices t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-! ## The output after the ten steps -/

/-- After the ten steps the output array is the host's general dot product of the two whole arrays as the steps
    found them: every entry was written by some step, each step wrote its block of the whole product, and the host's
    dot product at `(a, b)` is the same sum over `k < 128` of `x (a, k) · W1 (k, b)`. -/
theorem array_eq (V : (c : Dev nD) → (b : Ref sig .tc) → Buf (Elt Ideal) ((c : Thread nD τ).loc b)) (c : Dev nD)
    (w : DotDims.WF S100000x128 S128x64 S100000x64 [1] [0] [0] [1] [] []) :
    (Gen.dat0 (F := Ideal) V c).arrAt 2 cfg0.N
      = Host.dotGeneral (F := Ideal) (φ₁ := .f32) (φ₂ := .f32)
          (⟨[1], [0], [0], [1], [], [], w⟩ : DotDims S100000x128 S128x64 S100000x64) none
          (V c main_arg0) (V c main_arg2) := by
  rw [(dat0 V c).arrAt_eq_of_cover 2 (product (V c main_arg0) (V c main_arg2)) (fun t _ => flushed_eq V c t) covered]
  funext i
  obtain ⟨a, b, rfl⟩ : ∃ (a : Fin 100000) (b : Fin 64), i = ix2 a b := ⟨i 0, i 1, eq_ix2 i⟩
  exact (Cert.LibHostDotIx.dotGeneral_apply (M := 100000) (K := 128) (N := 64) w none (V c main_arg0) (V c main_arg2) a b).symm

end Cert.KernelIdeal.LayerOne

end
-- ==== Proof.LayerTwoArray.lean ====
/-
  The second layer's product, from blocks to the whole array.

  The second region multiplies the rectified, biased aggregate by the second weight matrix, 5000 rows at each of its
  20 grid points. Here: the body's stored value at one entry is the sum over the 64 hidden features `k` of
  `max (agg (p, k) + bias (0, k)) 0 * W2 (k, q)`; the block a point writes back is that point's block of ONE array,
  `product`, of the three arrays the region finds; the 20 blocks cover the output array, so it ends holding `product`;
  and the host's spelling of the same product (bias laid along the rows, maximum with the zero scalar laid everywhere,
  general dot product) reads the same sum at every entry.
-/
import proofs.«172553_j53996328845503_1_alg».proof.Proof.Gen.KernelIdeal.Frame
import proofs.«172553_j53996328845503_1_alg».proof.Proof.LibMatmulIx
import proofs.«172553_j53996328845503_1_alg».proof.Proof.LibHostDotIx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LayerTwo

open Cert.KernelIdeal Cert.KernelIdeal.Gen Idealize.ShloMosaic Idealize.ShloMosaic.TcCoe Idealize.SL.Sem
open Idealize.ShloMosaic.ValueIdx
open Idealize.ShloMosaic.Pipeline (Dat)

/-- One entry of the second layer's product: the sum over the 64 hidden features of the rectified, biased
    aggregate times the weight. -/
def entry (agg : S100000x64.Idx → EReal) (bias : S1x64.Idx → EReal) (wt : S64x40.Idx → EReal)
    (a : Fin 100000) (b : Fin 40) : EReal :=
  ∑ k : Fin 64, max (agg (ix2 a k) + bias (ix2 (0 : Fin 1) k)) 0 * wt (ix2 k b)

/-- The second layer's product as one array. -/
def product (agg : S100000x64.Idx → EReal) (bias : S1x64.Idx → EReal) (wt : S64x40.Idx → EReal) :
    S100000x40.Idx → EReal :=
  fun i => entry agg bias wt (i 0) (i 1)

/-- The value the body stores, at entry `(p, q)` of the block: the casts to the same shape and the narrowing of the
    float format change nothing over the extended reals, the one-row bias is read at row `0`, the zero literal is the
    extended real zero, and the product into the zero accumulator is the sum over the contracted coordinate. -/
theorem payload_apply (x0 : Vec Ideal S5000x64 .f32) (x1 : Vec Ideal S1x64 .f32) (x2 : Vec Ideal S64x40 .f32)
    (p : Fin 5000) (q : Fin 40) :
    k1_pay1 x0 x1 x2 (ix2 p q)
      = ∑ k : Fin 64, max (x0 (ix2 p k) + x1 (ix2 (0 : Fin 1) k)) 0 * x2 (ix2 k q) := by
  unfold k1_pay1
  refine (Cert.LibMatmulIx.matmul_zero_apply _ none _ _ p q).trans ?_
  refine Finset.sum_congr rfl fun k _ => ?_
  rw [truncf_apply, truncf_apply, maximumf_apply, addf_apply, shapeCast_self, shapeCast_self,
    broadcastTo_1b_ab_apply, broadcast_apply, Ideal.ofBits_def, Ideal.ofBits_zero_f32]

/-- The zero offsets of a whole-buffer access, as the constant function. -/
theorem zero_offsets : (![0, 0] : Fin 2 → Nat) = fun _ => 0 := funext fun a => by fin_cases a <;> rfl

/-- The block indices over the grid: the aggregate's and the output's row block is the point's number, every other
    block index is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The aggregate, the bias row and the weight matrix as the region finds them, at their literal types. -/
abbrev aggAt (c : Dev nD) : S100000x64.Idx → EReal := V c main_v48
abbrev biasAt (c : Dev nD) : S1x64.Idx → EReal := V c main_v49
abbrev wtAt (c : Dev nD) : S64x40.Idx → EReal := V c main_arg4

/-- What point `t` writes back is block `t` of `product` of the arrays the region finds: row `p` of the aggregate's
    block at `t` is row `5000 * t + p` of the aggregate, the bias row and the weight matrix are read whole. -/
theorem flushed_eq (c : Dev nD) (t : Fin cfg1.N) :
    (dat1 (F := Ideal) V c).flushed 3 t
      = ((cfg1.win 3).blk t).view.read (Elt Ideal) (product (V c main_v48) (V c main_v49) (V c main_arg4)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets,
    View.ld_unit_zero (S := S64x40) zero_offsets]
  obtain ⟨e00, e01, e10, e11, e20, e21, e30, e31⟩ := index_facts t
  funext j
  obtain ⟨p, q, rfl⟩ : ∃ (p : Fin 5000) (q : Fin 40), j = ix2 p q := ⟨j 0, j 1, eq_ix2 j⟩
  refine (payload_apply _ _ _ p q).trans ?_
  show _ = entry (V c main_v48) (V c main_v49) (V c main_arg4)
      ((((cfg1.win 3).blk t).view.emb (ix2 p q)) 0) ((((cfg1.win 3).blk t).view.emb (ix2 p q)) 1)
  unfold entry
  refine Finset.sum_congr rfl fun k _ => ?_
  show max (aggAt V c (((cfg1.win 0).blk t).view.emb (ix2 p k))
        + biasAt V c (((cfg1.win 1).blk t).view.emb (ix2 (0 : Fin 1) k))) 0
      * wtAt V c (((cfg1.win 2).blk t).view.emb (ix2 k q))
    = max (aggAt V c (ix2 ((((cfg1.win 3).blk t).view.emb (ix2 p q)) 0) k) + biasAt V c (ix2 (0 : Fin 1) k)) 0
      * wtAt V c (ix2 k ((((cfg1.win 3).blk t).view.emb (ix2 p q)) 1))
  have h0 : ((cfg1.win 0).blk t).view.emb (ix2 p k)
      = (ix2 ((((cfg1.win 3).blk t).view.emb (ix2 p q)) 0) k : S100000x64.Idx) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have h1 : ((cfg1.win 1).blk t).view.emb (ix2 (0 : Fin 1) k) = (ix2 (0 : Fin 1) k : S1x64.Idx) := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q)
      = (ix2 k ((((cfg1.win 3).blk t).view.emb (ix2 p q)) 1) : S64x40.Idx) := by
    funext a; apply Fin.ext
    match a with
    | ⟨0, _⟩ => show win1_2.index t (0 : Fin 2) * 64 + 1 * k.val = k.val; omega
    | ⟨1, _⟩ => show win1_2.index t (1 : Fin 2) * 40 + 1 * q.val = win1_3.index t (1 : Fin 2) * 40 + 1 * q.val; omega
  rw [h0, h1, h2]

/-- An index of the output array is in point `t`'s block iff each coordinate is in the block's range on its axis. -/
theorem mem_block (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v50).slice (win1_3.rect t)).set ↔ _
  rw [View.set_slice_whole, Rect.mem_set_unit]
  exact Iff.rfl

/-- Every row of the output lies in the block of the point numbered by the row divided by 5000. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 20 := N_1
  have hlt : (i 0).val / 5000 < cfg1.N := (by omega : (i 0).val / 5000 < 20).trans_eq hN.symm
  obtain ⟨-, -, -, -, -, -, e30, e31⟩ := index_facts ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_block]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 40 ≤ (i 1).val
      ∧ (i 1).val < win1_3.index ⟨(i 0).val / 5000, hlt⟩ (1 : Fin 2) * 40 + 40
    omega

/-- After the region the output array is the second layer's product of the arrays the region found. -/
theorem array_product (c : Dev nD) :
    (dat1 (F := Ideal) V c).arrAt 3 cfg1.N = product (V c main_v48) (V c main_v49) (V c main_arg4) :=
  (dat1 V c).arrAt_eq_of_cover 3 _ (fun t _ => flushed_eq V c t) cover

/-- The host's spelling of the rectified, biased aggregate, read at one entry: the bias vector laid along every row
    through its one-row form, and the zero scalar laid everywhere. -/
theorem host_activation_apply (agg : FVec Ideal S100000x64 .f32) (b1 : FVec Ideal S64 .f32)
    (h1 : S64.BroadcastsInDim S1x64 (![1] : Fin 1 → Fin S1x64.rank))
    (h2 : S1x64.BroadcastsInDim S100000x64 (![0, 1] : Fin 2 → Fin S100000x64.rank))
    (a : Fin 100000) (k : Fin 64) :
    maximumf (addf agg (broadcastInDim S100000x64 ![0, 1] h2 (broadcastInDim S1x64 ![1] h1 b1)))
        (broadcastInDim S100000x64 ![] bcast_S_S100000x64 (constant (F := Ideal) S_ .f32 0x00000000#32)) (ix2 a k)
      = max (agg (ix2 a k) + b1 (ix1 k)) 0 := by
  rw [maximumf_apply, addf_apply]
  rw [broadcastInDim_apply ![0, 1] h2 _ (ix2 a k) (ix2 (0 : Fin 1) k) (fun ax => by
        match ax with
        | ⟨0, _⟩ => rfl
        | ⟨1, _⟩ => rfl),
    broadcastInDim_apply ![1] h1 b1 (ix2 (0 : Fin 1) k) (ix1 k) (fun ax => by
        match ax with
        | ⟨0, _⟩ => rfl),
    broadcastInDim_apply ![] bcast_S_S100000x64 _ (ix2 a k) ix0 (fun ax => ax.elim0),
    constant_apply, Ideal.ofBits_zero_f32]

/-- After the region the output array is the host's product of the rectified, biased aggregate with the weight matrix:
    both hold at `(a, b)` the sum over the 64 hidden features `k` of `max (agg (a, k) + b1 k) 0 * W2 (k, b)`. -/
theorem array_eq (c : Dev nD)
    (b1 : FVec Ideal S64 .f32)
    (hb : ∀ k : Fin 64, V c main_v49 (ix2 (0 : Fin 1) k) = b1 (ix1 k))
    (w : DotDims.WF S100000x64 S64x40 S100000x40 [1] [0] [0] [1] [] [])
    (h1 : S64.BroadcastsInDim S1x64 (![1] : Fin 1 → Fin S1x64.rank))
    (h2 : S1x64.BroadcastsInDim S100000x64 (![0, 1] : Fin 2 → Fin S100000x64.rank)) :
    (Gen.dat1 (F := Ideal) V c).arrAt 3 cfg1.N
      = Host.dotGeneral (F := Ideal) (φ₁ := .f32) (φ₂ := .f32)
          (⟨[1], [0], [0], [1], [], [], w⟩ : DotDims S100000x64 S64x40 S100000x40) none
          (maximumf (addf (V c main_v48 : FVec Ideal S100000x64 .f32)
                          (broadcastInDim S100000x64 ![0, 1] h2 (broadcastInDim S1x64 ![1] h1 b1)))
                    (broadcastInDim S100000x64 ![] bcast_S_S100000x64 (constant (F := Ideal) S_ .f32 0x00000000#32)))
          (V c main_arg4 : FVec Ideal S64x40 .f32) := by
  rw [array_product]
  funext i
  obtain ⟨a, b, rfl⟩ : ∃ (a : Fin 100000) (b : Fin 40), i = ix2 a b := ⟨i 0, i 1, eq_ix2 i⟩
  refine Eq.trans ?_ (Cert.LibHostDotIx.dotGeneral_apply w none _ _ a b).symm
  show entry (V c main_v48) (V c main_v49) (V c main_arg4) a b = _
  unfold entry
  refine Finset.sum_congr rfl fun k _ => ?_
  rw [host_activation_apply, hb k]

end Cert.KernelIdeal.LayerTwo

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.KernelValue.lean ====
/-
  What the idealized kernel program's result buffer holds at the end, as a function of the arguments.

  The program's memory at the end is a fold through seven segments. Read backwards from the result buffer: the last
  host stretch aggregates the second region's output over the edges and adds the second bias; the second region's
  output array is the host's dot product of `max (a + b1, 0)` with the second weight matrix, where `a` is the first
  aggregate and `b1` the first bias (the region reads the bias as a one-row matrix, whose row is the bias vector);
  the stretch between the regions aggregates the first region's output over the edges; the first region's output
  array is the host's dot product of the node features with the first weight matrix; and the three leading
  stretches compute the edges' sources and targets and the edges' weights from the edge list. A buffer no segment in
  between writes is carried back unchanged, down to the launch memory.
-/
import proofs.«172553_j53996328845503_1_alg».proof.Proof.Gen.KernelIdeal.Frame
import proofs.«172553_j53996328845503_1_alg».proof.Proof.PiecesKernel
import proofs.«172553_j53996328845503_1_alg».proof.Proof.LayerOneArray
import proofs.«172553_j53996328845503_1_alg».proof.Proof.LayerTwoArray
import proofs.«172553_j53996328845503_1_alg».proof.Proof.LibTypedRef
import Idealize.ShloMosaic.PureOps.Ideal
import Idealize.ShloMosaic.Lib.StableHlo.Run
import Idealize.ShloMosaic.Lib.ValueIdx
import Idealize.ShloMosaic.Lib.ValueLayout

set_option maxRecDepth 16384

noncomputable section

namespace Cert.KernelIdeal.HostValue

open Cert.KernelIdeal Cert.KernelIdeal.Gen Cert.KernelIdeal.Pieces
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option maxHeartbeats 40000000 in
/-- The result buffer at the end of the fold: the second aggregation, plus the second bias, of the dot product of
    `max (first aggregation of (x · W1) + b1, 0)` with `W2`, the edges' ends and weights computed from the edge list.
    The well-formedness proofs of the two dot products and of the two bias broadcasts are arbitrary. -/
theorem result_value
    (w1 : DotDims.WF S100000x128 S128x64 S100000x64 [1] [0] [0] [1] [] [])
    (w2 : DotDims.WF S100000x64 S64x40 S100000x40 [1] [0] [0] [1] [] [])
    (h1 : S64.BroadcastsInDim S1x64 (![1] : Fin 1 → Fin S1x64.rank))
    (h2 : S1x64.BroadcastsInDim S100000x64 (![0, 1] : Fin 2 → Fin S100000x64.rank)) :
    W7 m ρ c (Proc.devRef .tc main_v66)
      = addBias40
          (agg40
            (Host.dotGeneral (F := Ideal) (φ₁ := .f32) (φ₂ := .f32)
              (⟨[1], [0], [0], [1], [], [], w2⟩ : DotDims S100000x64 S64x40 S100000x40) none
              (maximumf
                (addf
                  (agg64
                    (Host.dotGeneral (F := Ideal) (φ₁ := .f32) (φ₂ := .f32)
                      (⟨[1], [0], [0], [1], [], [], w1⟩ : DotDims S100000x128 S128x64 S100000x64) none
                      (m ((c.tc : Thread nD τ).loc main_arg0)) (m ((c.tc : Thread nD τ).loc main_arg2)))
                    (src (m ((c.tc : Thread nD τ).loc main_arg1))) (dst (m ((c.tc : Thread nD τ).loc main_arg1)))
                    (norm (src (m ((c.tc : Thread nD τ).loc main_arg1))) (dst (m ((c.tc : Thread nD τ).loc main_arg1)))))
                  (broadcastInDim S100000x64 ![0, 1] h2 (broadcastInDim S1x64 ![1] h1 (m ((c.tc : Thread nD τ).loc main_arg3)))))
                (broadcastInDim S100000x64 ![] bcast_S_S100000x64 (constant (F := Ideal) S_ .f32 0x00000000#32)))
              (m ((c.tc : Thread nD τ).loc main_arg4)))
            (src (m ((c.tc : Thread nD τ).loc main_arg1))) (dst (m ((c.tc : Thread nD τ).loc main_arg1)))
            (norm (src (m ((c.tc : Thread nD τ).loc main_arg1))) (dst (m ((c.tc : Thread nD τ).loc main_arg1)))))
          (m ((c.tc : Thread nD τ).loc main_arg5)) := by
  -- the last stretch, from the second region's exit
  dsimp only [W7]
  after_results_simp
  rw [W6_of_ne m ρ c main_v6 (by decide), W6_of_ne m ρ c main_v3 (by decide), W6_of_ne m ρ c main_v34 (by decide),
    W6_of_ne m ρ c main_arg5 (by decide)]
  -- the second region's output array; its bias row is the first bias vector
  have e50 : W6 m ρ c (Proc.devRef .tc main_v50) = (dat1 (V5 m ρ) c).arrAt 3 cfg1.N := W6_arr m ρ c 3
  have k3 : W4 m ρ c (Proc.devRef .tc main_arg3) = m ((c.tc : Thread nD τ).loc main_arg3) := by
    rw [W4_of_ne m ρ c main_arg3 (by decide)]
    dsimp only [W3, W2, W1]
    after_results_simp
  have hb : ∀ k : Fin 64, V5 m ρ c main_v49 (ix2 (0 : Fin 1) k)
      = (m ((c.tc : Thread nD τ).loc main_arg3) : FVec Ideal S64 .f32) (ix1 k) := by
    intro k
    show StableHlo.after (hostOps1 (F := Ideal)) (W4 m ρ c) (Proc.devRef .tc main_v49) (ix2 (0 : Fin 1) k) = _
    after_results_simp
    rw [k3]
    exact shapeCast_a_1a_apply _ _ 0 k
  rw [e50, LayerTwo.array_eq (V5 m ρ) c (m ((c.tc : Thread nD τ).loc main_arg3)) hb w2 h1 h2]
  -- the stretch between the regions, from the first region's exit
  dsimp only [V5, W5]
  after_results_simp
  -- the first region's output array, and the buffers it leaves alone
  have e35 : W4 m ρ c (Proc.devRef .tc main_v35) = (dat0 (V3 m ρ) c).arrAt 2 cfg0.N := W4_arr m ρ c 2
  rw [e35, LayerOne.array_eq (V3 m ρ) c w1,
    W4_of_ne m ρ c main_v6 (by decide), W4_of_ne m ρ c main_v3 (by decide), W4_of_ne m ρ c main_v34 (by decide),
    W4_of_ne m ρ c main_arg4 (by decide), W4_of_ne m ρ c main_arg5 (by decide)]
  -- the three leading stretches, down to the launch memory
  dsimp only [V3, W3, W2, W1]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  -- the outlined selection reads and writes its buffers through typed references: at literal references that
  -- transport is the identity
  have q19 : ∀ v, (TRef.of (sig := sig) (T := ⟨S100000, .f32⟩) main_v19).toBuf (Val := Elt Ideal) v = v :=
    fun v => eq_of_heq (Cert.Lib.TypedRef.toBuf_heq (TRef.of (sig := sig) (T := ⟨S100000, .f32⟩) main_v19) v)
  have q17 : ∀ v, (TRef.of (sig := sig) (T := ⟨S100000, .i1⟩) main_v17).ofBuf (Val := Elt Ideal) v = v :=
    fun v => eq_of_heq (Cert.Lib.TypedRef.ofBuf_heq (TRef.of (sig := sig) (T := ⟨S100000, .i1⟩) main_v17) v)
  have q18 : ∀ v, (TRef.of (sig := sig) (T := ⟨S100000, .f32⟩) main_v18).ofBuf (Val := Elt Ideal) v = v :=
    fun v => eq_of_heq (Cert.Lib.TypedRef.ofBuf_heq (TRef.of (sig := sig) (T := ⟨S100000, .f32⟩) main_v18) v)
  have qc3 : ∀ v, (TRef.of (sig := sig) (T := ⟨S_, .f32⟩) main_cst_3).ofBuf (Val := Elt Ideal) v = v :=
    fun v => eq_of_heq (Cert.Lib.TypedRef.ofBuf_heq (TRef.of (sig := sig) (T := ⟨S_, .f32⟩) main_cst_3) v)
  simp only [Cert.Lib.TypedRef.ofBuf_toBuf, q19, q17, q18, qc3]
  rfl

end Cert.KernelIdeal.HostValue

end
-- ==== Proof.PiecesReference.lean ====
/-
  The host-side pieces of the two-layer graph convolution, named.

  Every piece is a composition of host operations on whole arrays, over the extended reals: the edge lists with a
  self-loop appended for every node, the wrap of a negative index by the number of nodes, each node's in-degree as a
  sum of ones scattered to the edges' targets, its inverse square root where it is positive and zero elsewhere, the
  weight of an edge as the product of that quantity at its two ends, and the aggregation step of a layer: gather
  the rows of a node matrix at the edges' sources, scale each by its edge's weight, and add them up at the edges'
  targets; last, a bias row added to every row.
-/
import proofs.«172553_j53996328845503_1_alg».proof.Proof.Gen.ReferenceIdeal
import Idealize.ShloMosaic.PureOps.Ideal

noncomputable section

namespace Cert.ReferenceIdeal.Pieces

open Cert.ReferenceIdeal Cert.ReferenceIdeal.Facts₀ Idealize.ShloMosaic

/-- An integer array of shape `s`. -/
abbrev IV (s : Shape) := IVec s 32
/-- A float array of shape `s`, its entries extended reals. -/
abbrev FV (s : Shape) := FVec Ideal s .f32

/-- The edges' sources: row 0 of the edge list, followed by the nodes `0 … 99999` (the self-loops). -/
def src (ei : IV S2x1600000) : IV S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' targets: row 1 of the edge list, followed by the nodes `0 … 99999` (the self-loops). -/
def dst (ei : IV S2x1600000) : IV S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counted from the end: `x + 100000` where `x < 0`, `x` elsewhere. -/
def wrap (x : IV S1700000) : IV S1700000 :=
  select (cmpi .slt x (broadcastInDim S1700000 ![] bcast_S_S1700000 (constantI S_ 32 0#32))) (addi x (broadcastInDim S1700000 ![] bcast_S_S1700000 (constantI S_ 32 100000#32))) x

/-- Each node's in-degree: ones added up at the edges' targets, from zero. -/
def deg (d : IV S1700000) : FV S100000 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (wrap d)) (broadcastInDim S1700000 ![] bcast_S_S1700000 (constant (F := Ideal) S_ .f32 0x3F800000#32))

/-- The in-degree to the power `-1/2` where it is positive, zero elsewhere. -/
def dinv (d : IV S1700000) : FV S100000 :=
  select (cmpf .ogt (deg d) (broadcastInDim S100000 ![] bcast_S_S100000 (constant (F := Ideal) S_ .f32 0x00000000#32))) (Host.rsqrt (deg d)) (broadcastInDim S100000 ![] bcast_S_S100000 (id (constant (F := Ideal) S_ .f32 0x00000000#32)))

/-- An edge's weight: the product of `dinv` at its source and at its target. -/
def norm (s d : IV S1700000) : FV S1700000 :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- The aggregation of a 64-column node matrix `h`: row `h (s e)` scaled by the weight `n e`, summed over the
    edges `e` with target `d e`, from zero. -/
def agg64 (h : FV S100000x64) (s d : IV S1700000) (n : FV S1700000) : FV S100000x64 :=
  Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 n)))

/-- The aggregation of a 40-column node matrix, in the same way. -/
def agg40 (h : FV S100000x40) (s d : IV S1700000) (n : FV S1700000) : FV S100000x40 :=
  Host.scatterAdd scatter_S100000x40_S1700000x1_S1700000x40_1_0_0_1 (broadcastInDim S100000x40 ![] bcast_S_S100000x40 (constant (F := Ideal) S_ .f32 0x00000000#32)) (broadcastInDim S1700000x1 ![0] bcast_S1700000_S1700000x1_0 d) (mulf (Host.gather gather_S100000x40_S1700000x1_S1700000x40_1_0_n_n_0_1_140 h (broadcastInDim S1700000x1 ![0] bcast_S1700000_S1700000x1_0 (wrap s))) (broadcastInDim S1700000x40 ![0, 1] bcast_S1700000x1_S1700000x40_0_1 (broadcastInDim S1700000x1 ![0] bcast_S1700000_S1700000x1_0 n)))

/-- A 40-entry bias row added to every row of a 40-column matrix. -/
def addBias40 (a : FV S100000x40) (b : FV S40) : FV S100000x40 :=
  addf a (broadcastInDim S100000x40 ![0, 1] bcast_S1x40_S100000x40_0_1 (broadcastInDim S1x40 ![1] bcast_S40_S1x40_1 b))

end Cert.ReferenceIdeal.Pieces

end
-- ==== Proof.ReferenceValue.lean ====
/-
  What the idealized reference's result buffer holds at the end, by the named pieces.

  The reference's run ends with its result at the composed term of its 130 host operations. That term is, read
  from the outside in: the second bias added to the second aggregation of the dot product of
  `max (first aggregation of (x · W1) + b1, 0)` with `W2`; the edges' sources, targets and weights are the same
  subterms wherever they occur (the weights are computed once per layer, from the same edge list).
-/
import proofs.«172553_j53996328845503_1_alg».proof.Proof.RefRun
import proofs.«172553_j53996328845503_1_alg».proof.Proof.PiecesReference

set_option maxRecDepth 16384

noncomputable section

namespace Cert.ReferenceIdeal.HostValue

open Cert.ReferenceIdeal Cert.ReferenceIdeal.Facts₀ Cert.ReferenceIdeal.Pieces
open Idealize.ShloMosaic Idealize.ShloMosaic.TcCoe Idealize.SL.Sem

set_option maxHeartbeats 4000000 in
/-- The composed term of the reference's operations, folded into the named pieces. -/
theorem result_value (m : (ℓ : Loc nD τ sig) → Buf (Elt Ideal) ℓ) (c : Dev nD) :
    Cert.ReferenceIdeal.ValueP.res_main_v97 (F := Ideal) m c
      = addBias40
          (agg40
            (Host.dotGeneral (F := Ideal) (φ₁ := .f32) (φ₂ := .f32) dot_S100000x64_S64x40_S100000x40_1_0_0_1_n_n none
              (maximumf
                (addf
                  (agg64
                    (Host.dotGeneral (F := Ideal) (φ₁ := .f32) (φ₂ := .f32) dot_S100000x128_S128x64_S100000x64_1_0_0_1_n_n none
                      (m ((c.tc : Thread nD τ).loc main_arg0)) (m ((c.tc : Thread nD τ).loc main_arg2)))
                    (src (m ((c.tc : Thread nD τ).loc main_arg1))) (dst (m ((c.tc : Thread nD τ).loc main_arg1)))
                    (norm (src (m ((c.tc : Thread nD τ).loc main_arg1))) (dst (m ((c.tc : Thread nD τ).loc main_arg1)))))
                  (broadcastInDim S100000x64 ![0, 1] bcast_S1x64_S100000x64_0_1
                    (broadcastInDim S1x64 ![1] bcast_S64_S1x64_1 (m ((c.tc : Thread nD τ).loc main_arg3)))))
                (broadcastInDim S100000x64 ![] bcast_S_S100000x64 (constant (F := Ideal) S_ .f32 0x00000000#32)))
              (m ((c.tc : Thread nD τ).loc main_arg4)))
            (src (m ((c.tc : Thread nD τ).loc main_arg1))) (dst (m ((c.tc : Thread nD τ).loc main_arg1)))
            (norm (src (m ((c.tc : Thread nD τ).loc main_arg1))) (dst (m ((c.tc : Thread nD τ).loc main_arg1)))))
          (m ((c.tc : Thread nD τ).loc main_arg5)) := by
  unfold Cert.ReferenceIdeal.ValueP.res_main_v97
  rfl

end Cert.ReferenceIdeal.HostValue

end
-- ==== Proof.PiecesEq.lean ====
/-
  The named host-side pieces are the same functions in the two programs.

  Each program states its host operations over its own copies of the shapes and of the operations' dimension
  records. The copies are equal term by term, so each piece of the kernel program is, by unfolding, the piece of the
  reference of the same name.
-/
import proofs.«172553_j53996328845503_1_alg».proof.Proof.PiecesKernel
import proofs.«172553_j53996328845503_1_alg».proof.Proof.PiecesReference

noncomputable section

namespace Cert.PiecesEq

open Idealize.ShloMosaic

theorem src_eq (ei : IVec Cert.KernelIdeal.S2x1600000 32) :
    Cert.KernelIdeal.Pieces.src ei = Cert.ReferenceIdeal.Pieces.src ei := rfl

theorem dst_eq (ei : IVec Cert.KernelIdeal.S2x1600000 32) :
    Cert.KernelIdeal.Pieces.dst ei = Cert.ReferenceIdeal.Pieces.dst ei := rfl

theorem wrap_eq (x : IVec Cert.KernelIdeal.S1700000 32) :
    Cert.KernelIdeal.Pieces.wrap x = Cert.ReferenceIdeal.Pieces.wrap x := rfl

theorem deg_eq (d : IVec Cert.KernelIdeal.S1700000 32) :
    Cert.KernelIdeal.Pieces.deg d = Cert.ReferenceIdeal.Pieces.deg d := rfl

theorem dinv_eq (d : IVec Cert.KernelIdeal.S1700000 32) :
    Cert.KernelIdeal.Pieces.dinv d = Cert.ReferenceIdeal.Pieces.dinv d := rfl

theorem norm_eq (s d : IVec Cert.KernelIdeal.S1700000 32) :
    Cert.KernelIdeal.Pieces.norm s d = Cert.ReferenceIdeal.Pieces.norm s d := rfl

theorem agg64_eq (h : FVec Ideal Cert.KernelIdeal.S100000x64 .f32) (s d : IVec Cert.KernelIdeal.S1700000 32)
    (n : FVec Ideal Cert.KernelIdeal.S1700000 .f32) :
    Cert.KernelIdeal.Pieces.agg64 h s d n = Cert.ReferenceIdeal.Pieces.agg64 h s d n := rfl

theorem agg40_eq (h : FVec Ideal Cert.KernelIdeal.S100000x40 .f32) (s d : IVec Cert.KernelIdeal.S1700000 32)
    (n : FVec Ideal Cert.KernelIdeal.S1700000 .f32) :
    Cert.KernelIdeal.Pieces.agg40 h s d n = Cert.ReferenceIdeal.Pieces.agg40 h s d n := rfl

theorem addBias40_eq (a : FVec Ideal Cert.KernelIdeal.S100000x40 .f32) (b : FVec Ideal Cert.KernelIdeal.S40 .f32) :
    Cert.KernelIdeal.Pieces.addBias40 a b = Cert.ReferenceIdeal.Pieces.addBias40 a b := rfl

end Cert.PiecesEq

end
-- ==== Proof.ResultEq.lean ====
/-
  The two idealized programs end with the same result.

  The kernel program's result buffer ends at the second bias added to the second aggregation of the dot product of
  `max (first aggregation of (x · W1) + b1, 0)` with `W2` (its memory's fold, read backwards); the reference's result
  is the same composition of the same pieces (its operations' composed term, folded). The pieces are the same
  functions in the two programs, and the arguments agree.
-/
import proofs.«172553_j53996328845503_1_alg».proof.Proof.KernelValue
import proofs.«172553_j53996328845503_1_alg».proof.Proof.ReferenceValue
import proofs.«172553_j53996328845503_1_alg».proof.Proof.PiecesEq

set_option maxRecDepth 16384

noncomputable section

namespace Cert.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

set_option maxHeartbeats 4000000 in
/-- From memories agreeing on the six arguments, the value the kernel program's fold gives its result buffer is the
    reference's composed term. -/
theorem result_eq
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W7 m ρ c (Proc.devRef .tc main_v66) = Cert.ReferenceIdeal.ValueP.res_main_v97 (F := Ideal) m' c := by
  rw [Cert.KernelIdeal.HostValue.result_value m ρ c
      Cert.ReferenceIdeal.Facts₀.dot_S100000x128_S128x64_S100000x64_1_0_0_1_n_n_wf
      Cert.ReferenceIdeal.Facts₀.dot_S100000x64_S64x40_S100000x40_1_0_0_1_n_n_wf
      Cert.ReferenceIdeal.Facts₀.bcast_S64_S1x64_1 Cert.ReferenceIdeal.Facts₀.bcast_S1x64_S100000x64_0_1,
    Cert.ReferenceIdeal.HostValue.result_value m' c, h0, h1, h2, h3, h4, h5,
    Cert.PiecesEq.addBias40_eq, Cert.PiecesEq.agg40_eq, Cert.PiecesEq.agg64_eq, Cert.PiecesEq.norm_eq,
    Cert.PiecesEq.src_eq, Cert.PiecesEq.dst_eq]
  rfl

end Cert.Bridge

end
-- ==== Proof.lean ====
/-
  A two-layer graph convolution: the kernel program against its plain reference, over the extended reals.

  Both programs add a self-loop to every node, count each node's in-degree `deg`, set `dinv = deg^(-1/2)` where
  `deg > 0` and `0` elsewhere, give edge `(s, d)` the weight `dinv s · dinv d`, and apply twice the layer
  "multiply the node features by a weight matrix, gather the rows at the edges' sources, scale by the edge weights,
  sum into the edges' targets, add the bias", with `max(·, 0)` between the layers. The reference does everything with
  host operations and computes the edge weights once per layer. The kernel program computes them once, runs each
  layer's matrix product as a pipelined kernel over row blocks (the second one fused with the first layer's bias
  and the `max`), and leaves the rest to the same host operations.

  The two results are one function of the arguments. Read at the extended reals, a change of float format is the
  identity, and each kernel's row blocks tile its output, so after its last step the output array holds the host's
  general dot product of the whole operand arrays (`LayerOne.array_eq`, `LayerTwo.array_eq`: both are, entry by
  entry, the sum over the contracted coordinate of the products of the entries; extended-real addition is
  commutative and associative, so no finiteness is needed). Every other operation is the same host operation applied
  to equal operands; the edge weights the reference computes a second time are the same term again. The kernel
  program's memory at the end is the fold of its seven segments from the launch memory (`RunValue.run_all`), the
  reference's result is its operations' composed term (`ValueP.run`), and `Bridge.result_eq` walks the fold back,
  segment by segment, to that term.

  The frames of the two kernel programs are the generated ones; the reference's frame is its run with the result
  dropped. No rewrite was applied when the idealized kernel was printed, so it preserves the kernel trivially.
-/
import proofs.«172553_j53996328845503_1_alg».proof.Defs
import proofs.«172553_j53996328845503_1_alg».proof.Proof.Gen.Kernel
import proofs.«172553_j53996328845503_1_alg».proof.Proof.Gen.Kernel.Skeleton
import proofs.«172553_j53996328845503_1_alg».proof.Proof.Gen.Kernel.Launch
import proofs.«172553_j53996328845503_1_alg».proof.Proof.Gen.Kernel.Points
import proofs.«172553_j53996328845503_1_alg».proof.Proof.Gen.Kernel.Frame
import proofs.«172553_j53996328845503_1_alg».proof.Proof.Gen.KernelIdeal
import proofs.«172553_j53996328845503_1_alg».proof.Proof.Gen.KernelIdeal.Skeleton
import proofs.«172553_j53996328845503_1_alg».proof.Proof.Gen.KernelIdeal.Launch
import proofs.«172553_j53996328845503_1_alg».proof.Proof.Gen.KernelIdeal.Points
import proofs.«172553_j53996328845503_1_alg».proof.Proof.Gen.KernelIdeal.Frame
import proofs.«172553_j53996328845503_1_alg».proof.Proof.Gen.ReferenceIdeal
import proofs.«172553_j53996328845503_1_alg».proof.Proof.Gen.Pre_finite_inputs
import proofs.«172553_j53996328845503_1_alg».proof.Proof.KernelRun
import proofs.«172553_j53996328845503_1_alg».proof.Proof.RefRun
import proofs.«172553_j53996328845503_1_alg».proof.Proof.ResultEq
import Idealize.ShloMosaic.Adequacy
import Idealize.ShloMosaic.Init

noncomputable section

namespace Cert.Proof

open Idealize.ShloMosaic Idealize.ShloMosaic.TcCoe Idealize.SL.Sem

/-- The kernel program runs and keeps its arguments: the generated frame. -/
theorem frame_kernel : Cert.frame_Kernel := fun m ρ _ => Cert.Kernel.Gen.frame m ρ

/-- The idealized kernel program runs and keeps its arguments: the generated frame. -/
theorem frame_kernel_ideal : Cert.frame_KernelIdeal := fun m ρ _ => Cert.KernelIdeal.Gen.frame m ρ

/-- The idealized reference runs and keeps its arguments: its run, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on the six arguments both idealized programs run, keep their arguments, and end with
    the same result: the kernel program's result buffer holds the value its segments' fold gives it, the reference's
    holds its operations' composed term, and the two are equal. -/
theorem algebraic : Cert.algebraic_KernelIdeal_ReferenceIdeal := by
  intro m ρ m' ρ' _ hagree
  refine ⟨fun c => Cert.KernelIdeal.Gen.W7 m ρ c (Proc.devRef .tc Cert.KernelIdeal.main_v66),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.Bridge.result_eq m ρ c m' (hagree c).1 (hagree c).2.1 (hagree c).2.2.1 (hagree c).2.2.2.1
    (hagree c).2.2.2.2.1 (hagree c).2.2.2.2.2).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
